-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x4096 .f32) (main_arg1 : FVec F S4096x4096 .f32) (main_arg2 : FVec F S4096 .f32) (main_arg3 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S16384x4096 : Shape := ⟨2, ![16384, 4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 26
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .i1⟩
  | .hbm, ⟨15, _⟩ => ⟨S4096x4096, .f32⟩
  | .hbm, ⟨16, _⟩ => ⟨S4096x4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S16384x4096, .f32⟩
  | .hbm, ⟨22, _⟩ => ⟨S16384x4096, .bf16⟩
  | .hbm, ⟨23, _⟩ => ⟨S1x4096, .f32⟩
  | .hbm, ⟨24, _⟩ => ⟨S16384x4096, .f32⟩
  | .hbm, ⟨25, _⟩ => ⟨S8x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x4096_S8x2048x4096 : S16384x4096.ShapeCasts S8x2048x4096
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .bf16 = 32 ∨ (Rect.block (s := S16384x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x4096.size a
  hwx0_3 : ∀ i : grid0.Coords, EltTy.bits .f32 = 32 ∨ (Rect.block (s := S16384x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v15) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .i1⟩
  | .hbm, ⟨15, _⟩ => ⟨S4096x4096, .f32⟩
  | .hbm, ⟨16, _⟩ => ⟨S4096x4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S8x2048x4096, .f32⟩
  | .hbm, ⟨21, _⟩ => ⟨S1x1x4096, .f32⟩
  | .hbm, ⟨22, _⟩ => ⟨S8x2048x4096, .f32⟩
  | .hbm, ⟨23, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Spec.lean ====
/-
  The function both programs compute, stated once over plain arrays of extended reals.

  A linear layer `y = x · Wᵀ + b`: for a batch index `(p, s)` and an output channel `o`,
  `y[p, s, o] = (∑ k, x[p, s, k] · W[o, k]) + b[o]`.  The kernel computes it on the
  batch flattened to rows `r = 2048·p + s` of a `[16384, 4096]` matrix, with the bias as a
  one-row matrix; `linearRows` is that flattened form, and `linearRows_unflatten` says that
  un-flattening its rows gives `linear`.  Only re-indexing is involved: no law of the
  extended reals is used, so no finiteness is needed.
-/
import Idealize.ShloMosaic.PureOps.Ideal
import Idealize.ShloMosaic.Lib.ValueIdx
import Idealize.ShloMosaic.Lib.ValueLayout
import Idealize.ShloMosaic.Lib.Pipeline.Value

noncomputable section

namespace Cert.TernaryLinear

open Idealize.ShloMosaic Idealize.ShloMosaic.ValueIdx

/-- The batched input, `[8, 2048, 4096]`. -/
abbrev SX : Shape := ⟨3, ![8, 2048, 4096]⟩
/-- The flattened input and output, `[16384, 4096]`. -/
abbrev SR : Shape := ⟨2, ![16384, 4096]⟩
/-- The weight matrix, `[4096, 4096]`, rows indexed by the output channel. -/
abbrev SW : Shape := ⟨2, ![4096, 4096]⟩
/-- The bias, `[4096]`, and as a one-row matrix `[1, 4096]`. -/
abbrev SB : Shape := ⟨1, ![4096]⟩
abbrev SB2 : Shape := ⟨2, ![1, 4096]⟩

/-- `y[p, s, o] = (∑ k, x[p, s, k] · W[o, k]) + b[o]`. -/
def linear (X : SX.Idx → EReal) (W : SW.Idx → EReal) (b : SB.Idx → EReal) : SX.Idx → EReal :=
  fun i => (∑ k : Fin 4096, X (ix3 (i 0 : Fin 8) (i 1 : Fin 2048) k) * W (ix2 (i 2 : Fin 4096) k)) + b (ix1 (i 2 : Fin 4096))

theorem linear_apply (X : SX.Idx → EReal) (W : SW.Idx → EReal) (b : SB.Idx → EReal) (p : Fin 8) (s : Fin 2048) (o : Fin 4096) :
    linear X W b (ix3 p s o) = (∑ k : Fin 4096, X (ix3 p s k) * W (ix2 o k)) + b (ix1 o) := rfl

/-- The same on flattened rows: `y[r, o] = (∑ k, x[r, k] · W[o, k]) + b[0, o]`. -/
def linearRows (X : SR.Idx → EReal) (W : SW.Idx → EReal) (b : SB2.Idx → EReal) : SR.Idx → EReal :=
  fun i => (∑ k : Fin 4096, X (ix2 (i 0 : Fin 16384) k) * W (ix2 (i 1 : Fin 4096) k)) + b (ix2 (0 : Fin 1) (i 1 : Fin 4096))

theorem linearRows_apply (X : SR.Idx → EReal) (W : SW.Idx → EReal) (b : SB2.Idx → EReal) (r : Fin 16384) (o : Fin 4096) :
    linearRows X W b (ix2 r o) = (∑ k : Fin 4096, X (ix2 r k) * W (ix2 o k)) + b (ix2 (0 : Fin 1) o) := rfl

/-- Row `2048·p + s` of the flattened matrix is batch entry `(p, s)`. -/
def row (p : Fin 8) (s : Fin 2048) : Fin 16384 := ⟨p.val * 2048 + s.val, by omega⟩

/-- The flattened input read at row `2048·p + s` is the batched input at `(p, s)`. -/
theorem flatten_apply (X : SX.Idx → EReal) (h : SX.ShapeCasts SR) (p : Fin 8) (s : Fin 2048) (k : Fin 4096) :
    shapeCast SR X h (ix2 (row p s) k) = X (ix3 p s k) :=
  shapeCast_apply X h _ _ (by
    rw [Shape.rowMajor_val_two, Shape.rowMajor_val_three]
    rfl)

/-- Un-flattening the rows of `linearRows` of the flattened input and the one-row bias gives `linear`. -/
theorem linearRows_unflatten (X : SX.Idx → EReal) (W : SW.Idx → EReal) (b : SB.Idx → EReal)
    (hX : SX.ShapeCasts SR) (hb : SB.ShapeCasts SB2) (hY : SR.ShapeCasts SX) :
    shapeCast SX (linearRows (shapeCast SR X hX) W (shapeCast SB2 b hb)) hY = linear X W b := by
  funext i
  obtain ⟨p, s, o, rfl⟩ : ∃ (p : Fin 8) (s : Fin 2048) (o : Fin 4096), i = ix3 p s o := ⟨i 0, i 1, i 2, eq_ix3 i⟩
  rw [shapeCast_apply _ hY (ix3 p s o) (ix2 (row p s) o) (by
    rw [Shape.rowMajor_val_two, Shape.rowMajor_val_three]
    rfl)]
  rw [linearRows_apply, linear_apply, shapeCast_a_1a_apply]
  refine congrArg (· + b (ix1 o)) (Finset.sum_congr rfl fun k _ => ?_)
  rw [flatten_apply]

end Cert.TernaryLinear

end
-- ==== Proof.RefValue.lean ====
/-
  The reference computes `linear`.

  Its last three stages are a `dot_general` of the input with the quantized, scaled weight
  matrix `Wq` (contracting the input's last axis with the weight's second axis), the bias
  broadcast over the batch, and their sum.  Read at an index `(p, s, o)` that is
  `(∑ k, x[p, s, k] · Wq[o, k]) + b[o]`.  The weight matrix `Wq` — the sign of each weight,
  masked where its magnitude reaches 0.7 times the mean magnitude, times the channel's scale —
  is carried as the reference's own stage and never opened.
-/
import proofs.«113468_j12455405158913_2_alg».proof.Proof.Gen.ReferenceIdeal.Read
import proofs.«113468_j12455405158913_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.TernaryLinear

/-- The reference's result stage is `linear` of the input, the quantized weights and the bias. -/
theorem result_eq (x0 : SX.Idx → EReal) (x1 : SW.Idx → EReal) (x2 x3 : SB.Idx → EReal) :
    val_main_v16 (F := Ideal) x0 x1 x2 x3 = linear x0 (val_main_v12 (F := Ideal) x1 x2) x3 := by
  funext i
  obtain ⟨p, s, o, rfl⟩ : ∃ (p : Fin 8) (s : Fin 2048) (o : Fin 4096), i = ix3 p s o := ⟨i 0, i 1, i 2, eq_ix3 i⟩
  have el : ∀ k : Fin 4096, lidx_main_v13 (ix3 p s o) k = ix3 p s k := fun k => funext fun a => Fin.ext (by
    match a with
    | ⟨0, _⟩ => rfl
    | ⟨1, _⟩ => rfl
    | ⟨2, _⟩ => rfl)
  have er : ∀ k : Fin 4096, ridx_main_v13 (ix3 p s o) k = ix2 o k := fun k => funext fun a => Fin.ext (by
    match a with
    | ⟨0, _⟩ => rfl
    | ⟨1, _⟩ => rfl)
  have eb : idx_main_v14 (idx_main_v15 (ix3 p s o)) = ix1 o := funext fun a => Fin.ext (by
    match a with
    | ⟨0, _⟩ => rfl)
  rw [val_main_v16_apply, val_main_v13_apply, val_main_v15_apply, val_main_v14_apply, linear_apply, eb]
  simp only [el, er]
  rfl

end Cert.ReferenceIdeal.RefValue

end
-- ==== Proof.Payload.lean ====
/-
  What the kernel body stores, read at one element.

  The body multiplies its `[1024, 4096]` block of input rows with its `[512, 4096]` block of
  weight rows, contracting the last axis of both, into a zero accumulator, and adds its
  `[1, 512]` block of the bias broadcast over the rows.  At row `p` and column `q` of the
  `[1024, 512]` result that is `(∑ k, x[p, k] · w[q, k]) + b[0, q]`.
-/
import proofs.«113468_j12455405158913_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-- The operand indices of the product at output `i` and contraction index `c`: the left operand is read at
    row `i 0`, the right operand at row `i 1`, both at the contracted column. -/
theorem lhs_row (i : S1024x512.Idx) (c : dot_S1024x4096_S512x4096_S1024x512_1_1_0_0_n_n.contr.Idx) : (dot_S1024x4096_S512x4096_S1024x512_1_1_0_0_n_n.lhsIdx i c 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_col (i : S1024x512.Idx) (c : dot_S1024x4096_S512x4096_S1024x512_1_1_0_0_n_n.contr.Idx) : (dot_S1024x4096_S512x4096_S1024x512_1_1_0_0_n_n.lhsIdx i c 1).val = (c ⟨0, by decide⟩).val :=
  dot_S1024x4096_S512x4096_S1024x512_1_1_0_0_n_n.lhsIdx_val_of_single rfl i c
theorem rhs_row (i : S1024x512.Idx) (c : dot_S1024x4096_S512x4096_S1024x512_1_1_0_0_n_n.contr.Idx) : (dot_S1024x4096_S512x4096_S1024x512_1_1_0_0_n_n.rhsIdx i c 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_col (i : S1024x512.Idx) (c : dot_S1024x4096_S512x4096_S1024x512_1_1_0_0_n_n.contr.Idx) : (dot_S1024x4096_S512x4096_S1024x512_1_1_0_0_n_n.rhsIdx i c 1).val = (c ⟨0, by decide⟩).val :=
  dot_S1024x4096_S512x4096_S1024x512_1_1_0_0_n_n.rhsIdx_val_of_single rfl i c

/-- The matrix product into a zero accumulator at `(p, q)`: the sum over the shared last axis. -/
theorem matmul_at (x0 : FVec Ideal S1024x4096 .bf16) (x1 : FVec Ideal S512x4096 .bf16) (p : Fin 1024) (q : Fin 512) :
    matmul dot_S1024x4096_S512x4096_S1024x512_1_1_0_0_n_n none x0 x1 (constant (F := Ideal) S1024x512 .f32 0x00000000#32) (ix2 p q)
      = ∑ k : Fin 4096, x0 (ix2 p k) * x1 (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_row _ _
    | ⟨1, _⟩ => exact (lhs_col _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_row _ _
    | ⟨1, _⟩ => exact (rhs_col _ _).trans hk)
  rw [el, er]

/-- The stored value at `(p, q)`: the product's entry plus the bias block's entry of column `q`. -/
theorem pay_at (x0 : FVec Ideal S1024x4096 .bf16) (x1 : FVec Ideal S512x4096 .bf16) (x2 : FVec Ideal S1x512 .f32)
    (p : Fin 1024) (q : Fin 512) :
    k0_pay1 (F := Ideal) x0 x1 x2 (ix2 p q) = (∑ k : Fin 4096, x0 (ix2 p k) * x1 (ix2 q k)) + x2 (ix2 (0 : Fin 1) q) := by
  unfold k0_pay1
  simp only [shapeCast_self]
  rw [addf_apply, matmul_at, broadcastTo_1b_ab_apply]

end Cert.KernelIdeal.Body

end
-- ==== Proof.Blocks.lean ====
/-
  From blocks to the whole output matrix.

  The grid has 16 × 8 points; point `(i, j)` reads rows `1024·i …` of the flattened input, rows
  `512·j …` of the weight matrix (its rows are output channels) and columns `512·j …` of the one-row
  bias, and writes back the `[1024, 512]` block `(i, j)` of the `[16384, 4096]` output.  By the
  body's value at an element, that block is the block of ONE function of the three arrays as the
  region finds them — `linearRows` — and the 128 blocks tile the output, so the output ends
  holding `linearRows` of them.
-/
import proofs.«113468_j12455405158913_2_alg».proof.Proof.Gen.KernelIdeal.Frame
import proofs.«113468_j12455405158913_2_alg».proof.Proof.Payload
import proofs.«113468_j12455405158913_2_alg».proof.Proof.Spec
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)
open Cert.TernaryLinear

variable (m : (ℓ : Loc nD τ sig) → Buf (Elt Ideal) ℓ)

theorem zero_offsets : (![0, 0] : Fin 2 → Nat) = fun _ => 0 := funext fun a => by fin_cases a <;> rfl

/-- One block of the body's value is one block of `linearRows`: if the three loaded blocks are the
    arrays `X`, `W`, `B` read at row block `bi` (of 1024 rows), at row block `bj` (of 512 rows) and
    at column block `bj` (of 512 columns), then the stored value at `y` is `linearRows X W B` at
    row `1024·bi + y 0`, column `512·bj + y 1`. -/
theorem block_value (X : SR.Idx → EReal) (W : SW.Idx → EReal) (B : SB2.Idx → EReal)
    (x0 : FVec Ideal S1024x4096 .bf16) (x1 : FVec Ideal S512x4096 .bf16) (x2 : FVec Ideal S1x512 .f32)
    (bi bj : Nat) (hbi : bi ≤ 15) (hbj : bj ≤ 7)
    (h0 : ∀ (p : Fin 1024) (k : Fin 4096), x0 (ix2 p k) = X (ix2 (⟨bi * 1024 + p.val, by omega⟩ : Fin 16384) k))
    (h1 : ∀ (q : Fin 512) (k : Fin 4096), x1 (ix2 q k) = W (ix2 (⟨bj * 512 + q.val, by omega⟩ : Fin 4096) k))
    (h2 : ∀ (q : Fin 512), x2 (ix2 (0 : Fin 1) q) = B (ix2 (0 : Fin 1) (⟨bj * 512 + q.val, by omega⟩ : Fin 4096)))
    (y : S1024x512.Idx) (i : SR.Idx) (hi0 : (i 0).val = bi * 1024 + (y 0).val) (hi1 : (i 1).val = bj * 512 + (y 1).val) :
    k0_pay1 (F := Ideal) x0 x1 x2 y = linearRows X W B i := by
  obtain ⟨p, q, rfl⟩ : ∃ (p : Fin 1024) (q : Fin 512), y = ix2 p q := ⟨y 0, y 1, eq_ix2 y⟩
  have hb0 : bi * 1024 + p.val < 16384 := by omega
  have hb1 : bj * 512 + q.val < 4096 := by omega
  obtain ⟨r, o, rfl⟩ : ∃ (r : Fin 16384) (o : Fin 4096), i = ix2 r o := ⟨i 0, i 1, eq_ix2 i⟩
  obtain rfl : r = ⟨bi * 1024 + p.val, hb0⟩ := Fin.ext hi0
  obtain rfl : o = ⟨bj * 512 + q.val, hb1⟩ := Fin.ext hi1
  rw [Body.pay_at, linearRows_apply, h2]
  refine congrArg (· + _) (Finset.sum_congr rfl fun k _ => ?_)
  rw [h0, h1]

/-- The printed index maps, decided over the 128 grid points: the input rows move with the output's row
    block, the weight rows and the bias columns with the output's column block, and the other block
    indices are zero. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block of the output is some point's. -/
theorem idx_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-- The input window's block at a point, at `(p, k)`: the flattened input as the region finds it, at the
    row and column the block's position says. -/
theorem rows_block (c : Dev nD) (t : Fin cfg0.N) (p : Fin 1024) (k : Fin 4096) (i : SR.Idx)
    (h0 : (i 0).val = win0_0.index t (0 : Fin 2) * 1024 + p.val) (h1 : (i 1).val = win0_0.index t (1 : Fin 2) * 4096 + k.val) :
    (iblk m c 0 t : Vec Ideal S1024x4096 .bf16) (ix2 p k) = (V m c main_v15 : SR.Idx → EReal) i := by
  unfold iblk
  rw [View.read_apply]
  show V m c main_v15 _ = V m c main_v15 i
  refine congrArg (V m c main_v15) (funext fun a => Fin.ext ?_)
  match a with
  | ⟨0, _⟩ => show win0_0.index t (0 : Fin 2) * 1024 + 1 * p.val = (i 0).val; omega
  | ⟨1, _⟩ => show win0_0.index t (1 : Fin 2) * 4096 + 1 * k.val = (i 1).val; omega

/-- The weight window's block at a point, at `(q, k)`. -/
theorem weight_block (c : Dev nD) (t : Fin cfg0.N) (q : Fin 512) (k : Fin 4096) (i : SW.Idx)
    (h0 : (i 0).val = win0_1.index t (0 : Fin 2) * 512 + q.val) (h1 : (i 1).val = win0_1.index t (1 : Fin 2) * 4096 + k.val) :
    (iblk m c 1 t : Vec Ideal S512x4096 .bf16) (ix2 q k) = (V m c main_v13 : SW.Idx → EReal) i := by
  unfold iblk
  rw [View.read_apply]
  show V m c main_v13 _ = V m c main_v13 i
  refine congrArg (V m c main_v13) (funext fun a => Fin.ext ?_)
  match a with
  | ⟨0, _⟩ => show win0_1.index t (0 : Fin 2) * 512 + 1 * q.val = (i 0).val; omega
  | ⟨1, _⟩ => show win0_1.index t (1 : Fin 2) * 4096 + 1 * k.val = (i 1).val; omega

/-- The bias window's block at a point, at `(0, q)`. -/
theorem bias_block (c : Dev nD) (t : Fin cfg0.N) (q : Fin 512) (i : SB2.Idx)
    (h0 : (i 0).val = win0_2.index t (0 : Fin 2) * 1 + 0) (h1 : (i 1).val = win0_2.index t (1 : Fin 2) * 512 + q.val) :
    (iblk m c 2 t : Vec Ideal S1x512 .f32) (ix2 (0 : Fin 1) q) = (V m c main_v16 : SB2.Idx → EReal) i := by
  unfold iblk
  rw [View.read_apply]
  show V m c main_v16 _ = V m c main_v16 i
  refine congrArg (V m c main_v16) (funext fun a => Fin.ext ?_)
  match a with
  | ⟨0, _⟩ => show win0_2.index t (0 : Fin 2) * 1 + 1 * 0 = (i 0).val; omega
  | ⟨1, _⟩ => show win0_2.index t (1 : Fin 2) * 512 + 1 * q.val = (i 1).val; omega

/-- What the output ends holding: `linearRows` of the three staged arrays as the region finds them. -/
abbrev rowsResult (c : Dev nD) : SR.Idx → EReal :=
  linearRows (V m c main_v15 : SR.Idx → EReal) (V m c main_v13 : SW.Idx → EReal) (V m c main_v16 : SB2.Idx → EReal)

/-- What point `t` writes back is block `t` of `rowsResult`. -/
theorem flushed_eq (c : Dev nD) (t : Fin cfg0.N) :
    (dats m 0 c).flushed 3 t = ((cfg0.win 3).blk t).view.read (Elt Ideal) (rowsResult m c) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S512x4096) zero_offsets,
    View.ld_unit_zero (S := S1x512) zero_offsets]
  obtain ⟨e0, e1, e2, e3, e4, e5, e6, e7⟩ := idx_facts t
  funext y
  show k0_pay1 (F := Ideal) (iblk m c 0 t) (iblk m c 1 t) (iblk m c 2 t) y = rowsResult m c (((cfg0.win 3).blk t).view.emb y)
  refine block_value _ _ _ _ _ _ (win0_3.index t (0 : Fin 2)) (win0_3.index t (1 : Fin 2)) e6 e7 ?_ ?_ ?_ y _ ?_ ?_
  · intro p k
    exact rows_block m c t p k _ (by show _ = win0_0.index t (0 : Fin 2) * 1024 + p.val; rw [e0]) (by show k.val = win0_0.index t (1 : Fin 2) * 4096 + k.val; rw [e1]; omega)
  · intro q k
    exact weight_block m c t q k _ (by show _ = win0_1.index t (0 : Fin 2) * 512 + q.val; rw [e2]) (by show k.val = win0_1.index t (1 : Fin 2) * 4096 + k.val; rw [e3]; omega)
  · intro q
    exact bias_block m c t q _ (by show 0 = win0_2.index t (0 : Fin 2) * 1 + 0; rw [e4]) (by show _ = win0_2.index t (1 : Fin 2) * 512 + q.val; rw [e5])
  · show win0_3.index t (0 : Fin 2) * 1024 + 1 * (y 0).val = win0_3.index t (0 : Fin 2) * 1024 + (y 0).val; omega
  · show win0_3.index t (1 : Fin 2) * 512 + 1 * (y 1).val = win0_3.index t (1 : Fin 2) * 512 + (y 1).val; omega

/-- An index of the output is in point `t`'s block iff each coordinate is in the block's range on its axis. -/
theorem mem_blk (t : Fin cfg0.N) (i : S16384x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v17).slice (win0_3.rect t)).set ↔ _
  rw [View.set_slice_whole, Rect.mem_set_unit]
  exact Iff.rfl

/-- The blocks tile the output: entry `(r, o)` is in the block of the point at `(r / 1024, o / 512)`. -/
theorem covered (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output matrix after the region is `rowsResult`. -/
theorem final (c : Dev nD) : (dats m 0 c).arrAt 3 cfg0.N = rowsResult m c :=
  (dats m 0 c).arrAt_eq_of_cover 3 (rowsResult m c) (fun t _ => flushed_eq m c t) covered

end Cert.KernelIdeal.Blocks

end
-- ==== Proof.KernelValue.lean ====
/-
  The kernel's result as a function of its arguments.

  Before the region the host flattens the input to `[16384, 4096]`, computes the quantized, scaled
  weight matrix and views the bias as one row; the changes of float format on the way into the
  region are the identity on extended reals.  The quantized weight matrix is, operation for
  operation, the one the reference computes, so it is named by the reference's stage `Wq` and never
  opened.  After the region the host un-flattens the `[16384, 4096]` output to `[8, 2048, 4096]`.
  With the output matrix equal to `linearRows` of the staged arrays, the result is
  `linear x Wq b`: un-flattening the rows of `linearRows` of the flattened input gives `linear`.
-/
import proofs.«113468_j12455405158913_2_alg».proof.Proof.Blocks
import proofs.«113468_j12455405158913_2_alg».proof.Proof.Gen.ReferenceIdeal.Read
import Idealize.ShloMosaic.Lib.StableHlo.Run
import Idealize.ShloMosaic.Lib.Pipeline.Value

noncomputable section

namespace Cert.KernelIdeal.KernelValue

open Cert.KernelIdeal Cert.KernelIdeal.Gen
open Idealize.ShloMosaic Idealize.ShloMosaic.TcCoe Idealize.SL.Sem Idealize.ShloMosaic.ValueIdx Idealize.ShloMosaic.StableHlo
open Cert.TernaryLinear

variable (m : (ℓ : Loc nD τ sig) → Buf (Elt Ideal) ℓ) (ρ : Dev nD → PrngReg)

/-- The quantized, scaled weights of the argument arrays: the reference's stage. -/
abbrev Wq (c : Dev nD) : SW.Idx → EReal :=
  Cert.ReferenceIdeal.Read.val_main_v12 (F := Ideal) (m ((c : Thread nD τ).loc main_arg1)) (m ((c : Thread nD τ).loc main_arg2))

/-- The region finds the input flattened to rows. -/
theorem entry_rows (c : Dev nD) :
    (V m c main_v15 : SR.Idx → EReal) = shapeCast SR (m ((c : Thread nD τ).loc main_arg0) : SX.Idx → EReal) shapeCasts_S8x2048x4096_S16384x4096 := by
  show StableHlo.after hostOps0 (fun b => m (c, b)) (Proc.devRef .tc main_v15) = _
  after_results
  rfl

/-- The region finds the bias as a one-row matrix. -/
theorem entry_bias (c : Dev nD) :
    (V m c main_v16 : SB2.Idx → EReal) = shapeCast SB2 (m ((c : Thread nD τ).loc main_arg3) : SB.Idx → EReal) shapeCasts_S4096_S1x4096 := by
  show StableHlo.after hostOps0 (fun b => m (c, b)) (Proc.devRef .tc main_v16) = _
  after_results
  rfl

/-- The region finds the quantized, scaled weights: the host's operations before the region are the
    reference's, one for one, on the same arguments. -/
theorem entry_weights (c : Dev nD) : (V m c main_v13 : SW.Idx → EReal) = Wq m c := by
  show StableHlo.after hostOps0 (fun b => m (c, b)) (Proc.devRef .tc main_v13) = _
  after_results
  rfl

/-- The result array is what the host's last operation makes of the output matrix, its rows un-flattened: `linear`. -/
theorem result_eq (c : Dev nD) :
    Pipeline.afterTail₀ cfgs (dats m) 0 (V0 m) [hostOps1] c main_v18
      = linear (m ((c : Thread nD τ).loc main_arg0) : SX.Idx → EReal) (Wq m c) (m ((c : Thread nD τ).loc main_arg3) : SB.Idx → EReal) := by
  unfold Pipeline.afterTail₀
  show StableHlo.after hostOps1 _ (Proc.devRef .tc main_v18) = _
  after_results
  have e : (Pipeline.withArrays (cfgs 0).spec c (V0 m c) (fun w => (dats m 0 c).arrAt w (cfgs 0).N) (Proc.devRef .tc main_v17) : SR.Idx → EReal)
      = Blocks.rowsResult m c :=
    (Pipeline.withArrays_arr spec0 launch0.win.arr_inj c _ _ 3).trans (Blocks.final m c)
  show shapeCast SX (Pipeline.withArrays (cfgs 0).spec c (V0 m c) (fun w => (dats m 0 c).arrAt w (cfgs 0).N) (Proc.devRef .tc main_v17) : SR.Idx → EReal) shapeCasts_S16384x4096_S8x2048x4096 = _
  rw [e]
  unfold Blocks.rowsResult
  rw [entry_rows, entry_weights, entry_bias, linearRows_unflatten]

/-- The kernel's run: the result array ends at `linear` of the arguments, which end unchanged. -/
theorem run : θ_run defs (onTc (τ := τ) (main (F := Ideal))) ⟨m, fun _ => 0, ρ⟩ fun r => ∀ c : Dev nD,
      r.2.mem ((c.tc : Thread nD τ).loc main_v18)
        = linear (m ((c : Thread nD τ).loc main_arg0) : SX.Idx → EReal) (Wq m c) (m ((c : Thread nD τ).loc main_arg3) : SB.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.lean ====
/-
  A ternary-weight linear layer: `y = x · Wqᵀ + b`, where `Wq` is the weight matrix quantized to
  the sign of each weight, masked where its magnitude reaches 0.7 times the mean magnitude, and
  scaled per output channel.

  Both programs compute `Wq` on the host by the same operations on the same arguments, so the
  proof carries it as one unopened term.  The kernel flattens the batch to 16384 rows, multiplies
  in 16 × 8 blocks of 1024 rows by 512 output channels — each block the full contraction over the
  4096 input features into a zero accumulator, plus the bias — and un-flattens the result; the
  reference contracts the batched input with `Wq` in one product and adds the bias broadcast over
  the batch.  On extended reals both are, at `(p, s, o)`, `(∑ k, x[p, s, k] · Wq[o, k]) + b[o]`
  (`Cert.TernaryLinear.linear`): the two sides differ only in how the indices are arranged, so no
  law of addition or multiplication is used and the precondition is never opened.

  The frames of the two kernel programs and the reference's run are the generated ones; the
  idealized kernel is the kernel's own text read on extended reals, with no operation rewritten, so
  the idealization conjunct is `True`.
-/
import proofs.«113468_j12455405158913_2_alg».proof.Defs
import proofs.«113468_j12455405158913_2_alg».proof.Proof.Gen.Kernel
import proofs.«113468_j12455405158913_2_alg».proof.Proof.Gen.Kernel.Skeleton
import proofs.«113468_j12455405158913_2_alg».proof.Proof.Gen.Kernel.Launch
import proofs.«113468_j12455405158913_2_alg».proof.Proof.Gen.Kernel.Points
import proofs.«113468_j12455405158913_2_alg».proof.Proof.Gen.Kernel.Frame
import proofs.«113468_j12455405158913_2_alg».proof.Proof.Gen.KernelIdeal
import proofs.«113468_j12455405158913_2_alg».proof.Proof.Gen.KernelIdeal.Skeleton
import proofs.«113468_j12455405158913_2_alg».proof.Proof.Gen.KernelIdeal.Launch
import proofs.«113468_j12455405158913_2_alg».proof.Proof.Gen.KernelIdeal.Points
import proofs.«113468_j12455405158913_2_alg».proof.Proof.Gen.KernelIdeal.Frame
import proofs.«113468_j12455405158913_2_alg».proof.Proof.Gen.ReferenceIdeal
import proofs.«113468_j12455405158913_2_alg».proof.Proof.Gen.ReferenceIdeal.Run
import proofs.«113468_j12455405158913_2_alg».proof.Proof.Gen.ReferenceIdeal.Read
import proofs.«113468_j12455405158913_2_alg».proof.Proof.Gen.Pre_finite_inputs
import proofs.«113468_j12455405158913_2_alg».proof.Proof.RefValue
import proofs.«113468_j12455405158913_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with `linear x Wq b` of them. -/
theorem algebraic : Cert.algebraic_KernelIdeal_ReferenceIdeal := by
  intro m ρ m' ρ' _ hagree
  refine ⟨fun c => Cert.TernaryLinear.linear (m ((c : Thread Cert.KernelIdeal.nD Cert.KernelIdeal.τ).loc Cert.KernelIdeal.main_arg0))
      (Cert.KernelIdeal.KernelValue.Wq m c) (m ((c : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
